-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S128x64 : Shape := ⟨2, ![128, 64]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S524288x64 .f32) (main_arg1 : FVec F S128x64 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S524288x64 : Shape := ⟨2, ![524288, 64]⟩
abbrev S128x64 : Shape := ⟨2, ![128, 64]⟩
abbrev S64x128 : Shape := ⟨2, ![64, 128]⟩
abbrev S_ : Shape := ⟨0, ![]⟩
abbrev S128 : Shape := ⟨1, ![128]⟩
abbrev S1x128 : Shape := ⟨2, ![1, 128]⟩
abbrev S2x128x64 : Shape := ⟨3, ![2, 128, 64]⟩
abbrev S4096x64 : Shape := ⟨2, ![4096, 64]⟩
abbrev S1x128x64 : Shape := ⟨3, ![1, 128, 64]⟩
abbrev S4096 : Shape := ⟨1, ![4096]⟩
abbrev S4096x1 : Shape := ⟨2, ![4096, 1]⟩
abbrev S4096x128 : Shape := ⟨2, ![4096, 128]⟩

abbrev nBuf : Space → Nat
  | .hbm => 10
  | .vmem => 7
  | .smem => 0
  | _ => 0

abbrev bufTy : (tb : Table) → Fin (tcTables nBuf tb) → BufTy
  | .hbm, ⟨0, _⟩ => ⟨S524288x64, .f32⟩
  | .hbm, ⟨1, _⟩ => ⟨S128x64, .f32⟩
  | .hbm, ⟨2, _⟩ => ⟨S64x128, .f32⟩
  | .hbm, ⟨3, _⟩ => ⟨S128x64, .f32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S2x128x64, .f32⟩
  | .hbm, ⟨8, _⟩ => ⟨S_, .f32⟩
  | .hbm, ⟨9, _⟩ => ⟨S128x64, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S1x128, .f32⟩
  | .local _ .vmem, ⟨4, _⟩ => ⟨S1x128x64, .f32⟩
  | .local _ .vmem, ⟨5, _⟩ => ⟨S1x128x64, .f32⟩
  | .local _ .vmem, ⟨6, _⟩ => ⟨S128x64, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v31 : BitVec 1 := Scalar.cmpi .eq arg1 c63_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S128x64_S64x128_1_0 : S128x64.Transposes [1, 0] S64x128
  reducesTo_S128x64_S128_d1 : S128x64.ReducesTo [1] S128
  h_S_ : 0 < S_.numel
  bcast_S128_S1x128_1 : S128.BroadcastsInDim S1x128 (![1] : Fin 1 → Fin S1x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4096x64_S4096 : S4096x64.Reduces [1] S4096
  shapeCasts_S4096_S4096x1 : S4096.ShapeCasts S4096x1
  broadcasts_S4096x1_S4096x128 : S4096x1.Broadcasts S4096x128
  broadcasts_S1x128_S4096x128 : S1x128.Broadcasts S4096x128
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  reducesTo_S2x128x64_S128x64_d0 : S2x128x64.ReducesTo [0] S128x64
  dot_S4096x64_S64x128_S4096x128_1_0_0_1_n_n_wf : DotDims.WF S4096x64 S64x128 S4096x128 [1] [0] [0] [1] [] []
  dot_S4096x128_S4096x64_S128x64_0_0_1_1_n_n_wf : DotDims.WF S4096x128 S4096x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S2x128x64.size a
  hwx0_3 : ∀ i : grid0.Coords, EltTy.bits .f32 = 32 ∨ (Rect.block (s := S2x128x64) S1x128x64.size (cc0_transform_3 i) (hinb0_3 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S4096x64_S128x64_0_0_1_1_n_n : DotDims S4096x128 S4096x64 S128x64 where
  lhsContracting := [0]
  rhsContracting := [0]
  lhsNonContracting := [1]
  rhsNonContracting := [1]
  lhsBatch := []
  rhsBatch := []
  wf := dot_S4096x128_S4096x64_S128x64_0_0_1_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x64 : Shape := ⟨2, ![524288, 64]⟩
abbrev S128x64 : Shape := ⟨2, ![128, 64]⟩
abbrev S_ : Shape := ⟨0, ![]⟩
abbrev S524288 : Shape := ⟨1, ![524288]⟩
abbrev S524288x1 : Shape := ⟨2, ![524288, 1]⟩
abbrev S128 : Shape := ⟨1, ![128]⟩
abbrev S1x128 : Shape := ⟨2, ![1, 128]⟩
abbrev S524288x128 : Shape := ⟨2, ![524288, 128]⟩

abbrev nBuf : Space → Nat
  | .hbm => 24
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S128x64, .f32⟩
  | .hbm, ⟨2, _⟩ => ⟨S524288x64, .f32⟩
  | .hbm, ⟨3, _⟩ => ⟨S_, .f32⟩
  | .hbm, ⟨4, _⟩ => ⟨S524288, .f32⟩
  | .hbm, ⟨5, _⟩ => ⟨S524288x1, .f32⟩
  | .hbm, ⟨6, _⟩ => ⟨S128x64, .f32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S524288x128, .f32⟩
  | .hbm, ⟨11, _⟩ => ⟨S_, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S524288x128, .f32⟩
  | .hbm, ⟨23, _⟩ => ⟨S128x64, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S524288x64_S524288_d1 : S524288x64.ReducesTo [1] S524288
  h_S_ : 0 < S_.numel
  bcast_S524288_S524288x1_0 : S524288.BroadcastsInDim S524288x1 (![0] : Fin 1 → Fin S524288x1.rank)
  reducesTo_S128x64_S128_d1 : S128x64.ReducesTo [1] S128
  bcast_S128_S1x128_1 : S128.BroadcastsInDim S1x128 (![1] : Fin 1 → Fin S1x128.rank)
  bcast_S_S524288x128 : S_.BroadcastsInDim S524288x128 (![] : Fin 0 → Fin S524288x128.rank)
  bcast_S524288x1_S524288x128_0_1 : S524288x1.BroadcastsInDim S524288x128 (![0, 1] : Fin 2 → Fin S524288x128.rank)
  bcast_S1x128_S524288x128_0_1 : S1x128.BroadcastsInDim S524288x128 (![0, 1] : Fin 2 → Fin S524288x128.rank)
  dot_S524288x64_S128x64_S524288x128_1_1_0_0_n_n_wf : DotDims.WF S524288x64 S128x64 S524288x128 [1] [1] [0] [0] [] []
  dot_S524288x128_S524288x64_S128x64_0_0_1_1_n_n_wf : DotDims.WF S524288x128 S524288x64 S128x64 [0] [0] [1] [1] [] []

variable [Facts₀]

def dot_S524288x64_S128x64_S524288x128_1_1_0_0_n_n : DotDims S524288x64 S128x64 S524288x128 where
  lhsContracting := [1]
  rhsContracting := [1]
  lhsNonContracting := [0]
  rhsNonContracting := [0]
  lhsBatch := []
  rhsBatch := []
  wf := dot_S524288x64_S128x64_S524288x128_1_1_0_0_n_n_wf
def dot_S524288x128_S524288x64_S128x64_0_0_1_1_n_n : DotDims S524288x128 S524288x64 S128x64 where
  lhsContracting := [0]
  rhsContracting := [0]
  lhsNonContracting := [1]
  rhsNonContracting := [1]
  lhsBatch := []
  rhsBatch := []
  wf := dot_S524288x128_S524288x64_S128x64_0_0_1_1_n_n_wf

class Facts : Prop extends Facts₀ where

variable [Facts]
-- ==== Proof.Pieces.lean ====
/-
  What one run of the body leaves behind, in each of its three control cases, as values.

  The accumulator (the 128×64 scratch) is stored whole once per run, so what it holds afterwards is that one store's
  payload: the accumulator it read plus this tile's contribution. At the first tile of a core the body first stores
  the zero block and reads it back, so the accumulator it adds to is the zero block; at every other tile it is what
  the tile before left. At the last tile of a core the body also copies the accumulator, read back after its store,
  into the output block with a leading unit axis added. Stated at any float instance: nothing here computes.
-/
import proofs.«109333_j40175124087486_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- First tile of a core: the accumulator ends at the zero block plus the tile's contribution. -/
theorem acc_first (c : Dev nD) (i : grid0.Coords) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128x64 .f32) (harg5 : arg5.IsWhole) (arg6 : Memref sig .tc .vmem S128x64 .f32) (harg6 : arg6.IsWhole) (hc0 : cond0_0 i) (hc1 : ¬cond0_1 i)
    (x0 : Vec F S4096x64 .f32) (x1 : Vec F S64x128 .f32) (x2 : Vec F S1x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x64) zero2, View.readCov_unit_zero (S := S128x64) _ zero2]
  simp only [View.readAt_eq_ld, harg2.read_unread, harg3.read_unread, harg4.read_unread, harg6.read_unread,
    View.ld_unit_zero (S := S4096x64) zero2, View.ld_unit_zero (S := S64x128) zero2, View.ld_unit_zero (S := S1x128) zero2,
    View.ld_unit_zero (S := S128x64) zero2]

/-- A middle tile: the accumulator ends at what the tile before left plus the tile's contribution. -/
theorem acc_middle (c : Dev nD) (i : grid0.Coords) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : ¬cond0_1 i)
    (x0 : Vec F S4096x64 .f32) (x1 : Vec F S64x128 .f32) (x2 : Vec F S1x128 .f32) (xs0 : Vec F S128x64 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero zero2]
  simp only [View.readAt_eq_ld, harg2.read_unread, harg3.read_unread, harg4.read_unread, harg6.read_unread,
    View.ld_unit_zero (S := S4096x64) zero2, View.ld_unit_zero (S := S64x128) zero2, View.ld_unit_zero (S := S1x128) zero2,
    View.ld_unit_zero (S := S128x64) zero2]

/-- The last tile of a core: the accumulator likewise, -/
theorem acc_last (c : Dev nD) (i : grid0.Coords) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S4096x64 .f32) (x1 : Vec F S64x128 .f32) (x2 : Vec F S1x128 .f32) (xs0 : Vec F S128x64 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero2]
  simp only [View.readAt_eq_ld, harg2.read_unread, harg3.read_unread, harg4.read_unread, harg6.read_unread,
    View.ld_unit_zero (S := S4096x64) zero2, View.ld_unit_zero (S := S64x128) zero2, View.ld_unit_zero (S := S1x128) zero2,
    View.ld_unit_zero (S := S128x64) zero2]

/-- and the output block is that accumulator with a leading unit axis. -/
theorem out_last (c : Dev nD) (i : grid0.Coords) (arg2 : Memref sig .tc .vmem S4096x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128x64 .f32) (harg5 : arg5.IsWhole) (arg6 : Memref sig .tc .vmem S128x64 .f32) (harg6 : arg6.IsWhole) (hc0 : ¬cond0_0 i) (hc1 : cond0_1 i)
    (x0 : Vec F S4096x64 .f32) (x1 : Vec F S64x128 .f32) (x2 : Vec F S1x128 .f32) (xs0 : Vec F S128x64 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero3, View.readCov_unit_zero (S := S128x64) _ zero2]
  simp only [View.readAt_eq_ld, harg2.read_unread, harg3.read_unread, harg4.read_unread, harg6.read_unread,
    View.ld_unit_zero (S := S4096x64) zero2, View.ld_unit_zero (S := S64x128) zero2, View.ld_unit_zero (S := S1x128) zero2,
    View.ld_unit_zero (S := S128x64) zero2]

end Cert.KernelIdeal.Pieces

end
-- ==== Proof.LibRbfHistogram.lean ====
/-
  A radial-basis-weighted histogram on the extended reals, generic in the number of rows.

  For a row `x : Fin K → EReal` and a centre `c : Fin K → EReal` the squared distance is spelled
  `(|x|² − 2·(x·c)) + |c|²` (three sums over the `K` coordinates, the literal `2` kept as its f32 word),
  the weight is `exp (−d / 2)`, and the histogram of a family of rows at coordinate `i` is the sum over
  the rows of `weight · xᵢ`.

  Two facts are proved. The exponent has two spellings, `(0 − d) · ½` and `(−d) / 2`, which agree on
  EVERY extended real (the infinities included): `0 − d = −d`, and a quotient by the real `2` is the product
  with the real `½`. And the histogram of `a · b` rows is the sum over `a` blocks of the histograms of
  `b` consecutive rows: a finite sum in a commutative monoid regrouped, no finiteness needed.
-/
import Idealize.ShloMosaic.PureOps.Ideal
import Idealize.ShloMosaic.PureOps.Ideal.Laws

noncomputable section

namespace Cert.RbfHistogram

open Idealize.ShloMosaic

/-! ## The two literal words -/

/-- The f32 word `0x40000000` denotes the real `2`. -/
theorem two_word : Ideal.ofBits .f32 0x40000000#32 = ((2 : ℝ) : EReal) := by
  simp [Ideal.ofBits, Ideal.ieee, -EReal.coe_mul]; norm_num

/-- The f32 word `0x3F000000` denotes the real `1/2`. -/
theorem half_word : Ideal.ofBits .f32 0x3F000000#32 = ((1 / 2 : ℝ) : EReal) := by
  simp [Ideal.ofBits, Ideal.ieee, -EReal.coe_mul]; norm_num

/-- `(0 − e) · ½ = (−e) / 2` on every extended real. -/
theorem exponent_eq (e : EReal) :
    (Ideal.ofBits .f32 0x00000000#32 - e) * Ideal.ofBits .f32 0x3F000000#32
      = Ideal.div (-e) (Ideal.ofBits .f32 0x40000000#32) := by
  rw [Ideal.ofBits_zero_f32, zero_sub, two_word, half_word, Ideal.div_coe (by norm_num : (2 : ℝ) ≠ 0)]

/-! ## Distance, weight, histogram -/

variable {K : ℕ}

/-- `|x|²`. -/
def rowSq (x : Fin K → EReal) : EReal := ∑ k, x k * x k

/-- `x · c`. -/
def rowDot (x c : Fin K → EReal) : EReal := ∑ k, x k * c k

/-- The squared distance, in the association both programs use: `(|x|² − 2·(x·c)) + |c|²`. -/
def dist (x c : Fin K → EReal) : EReal := (rowSq x - Ideal.ofBits .f32 0x40000000#32 * rowDot x c) + rowSq c

/-- The weight `exp (−d / 2)`. -/
def weight (x c : Fin K → EReal) : EReal :=
  Ideal.exp (Ideal.div (-(dist x c)) (Ideal.ofBits .f32 0x40000000#32))

/-- The other spelling of the weight: `exp ((0 − d) · ½)`. -/
theorem weight_half (x c : Fin K → EReal) :
    Ideal.exp ((Ideal.ofBits .f32 0x00000000#32 - dist x c) * Ideal.ofBits .f32 0x3F000000#32) = weight x c := by
  rw [exponent_eq]; rfl

/-- The histogram of the rows `x` against the centre `c`, at coordinate `i`. -/
def hist {N : ℕ} (x : Fin N → Fin K → EReal) (c : Fin K → EReal) (i : Fin K) : EReal :=
  ∑ n, weight (x n) c * x n i

/-! ## Sums over blocks of consecutive indices -/

/-- Index `q` of block `p` among `a` blocks of `b` consecutive indices. -/
def blockIdx {a b : ℕ} (p : Fin a) (q : Fin b) : Fin (a * b) :=
  ⟨p.val * b + q.val, by
    have hp := p.isLt; have hq := q.isLt
    calc p.val * b + q.val < p.val * b + b := by omega
      _ = (p.val + 1) * b := by ring
      _ ≤ a * b := Nat.mul_le_mul_right b hp⟩

theorem blockIdx_val {a b : ℕ} (p : Fin a) (q : Fin b) : (blockIdx p q).val = p.val * b + q.val := rfl

/-- A sum over `a · b` indices is the sum over the `a` blocks of the sums over each block's `b` indices. -/
theorem sum_blocks {M : Type*} [AddCommMonoid M] (a b : ℕ) (f : Fin (a * b) → M) :
    ∑ r, f r = ∑ p : Fin a, ∑ q : Fin b, f (blockIdx p q) := by
  rw [← (finProdFinEquiv (m := a) (n := b)).sum_comp, Fintype.sum_prod_type]
  refine Finset.sum_congr rfl fun p _ => Finset.sum_congr rfl fun q _ => congrArg f (Fin.ext ?_)
  rw [finProdFinEquiv_apply_val, blockIdx_val]
  ring

/-- The histogram of `a · b` rows is the sum of the histograms of the `a` blocks of `b` rows. -/
theorem hist_blocks (a b : ℕ) (x : Fin (a * b) → Fin K → EReal) (c : Fin K → EReal) (i : Fin K) :
    hist x c i = ∑ p : Fin a, hist (fun q => x (blockIdx p q)) c i := by
  unfold hist
  exact sum_blocks a b _

end Cert.RbfHistogram

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.TileValue.lean ====
/-
  One tile's arithmetic at the extended reals, entry by entry.

  A tile is 4096 rows `x` of 64 coordinates, the transposed centres `bct` (64×128) and the centres' squared norms
  `c2` (1×128). The body forms the row norms `|x_n|²` by a lane sum kept as a column, the inner products `x·bct` by a
  matrix product into zero, the distances `(|x_n|² − 2·(x_n·c_o)) + |c_o|²` by broadcasting the column and the row, the
  weights `exp ((0 − d)·½)`, and then the 128×64 contribution `∑ₙ weight (n, o) · x (n, i)` by a second matrix product
  contracted over the ROW axis of both operands, added to the accumulator. Changes of float format are the identity
  here. So the stored accumulator at `(o, i)` is the old one plus the histogram of the tile's 4096 rows against centre
  `o`, provided column `o` of `bct` is that centre and entry `o` of `c2` its squared norm.
-/
import proofs.«109333_j40175124087486_2_alg».proof.Proof.Gen.KernelIdeal.Skeleton
import proofs.«109333_j40175124087486_2_alg».proof.Proof.LibRbfHistogram
import proofs.«109333_j40175124087486_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.RbfHistogram Cert.ColumnLayout
open Idealize.ShloMosaic Idealize.ShloMosaic.ValueIdx

/-! ## The body's weights as one term, at any float instance -/

section Generic
variable {F : FTy → Type} [FloatOps F]

/-- The tile's 4096×128 weights: the body's operations from the loads to the exponential. -/
def tileRbf (v3 : Vec F S4096x64 .f32) (v4 : Vec F S64x128 .f32) (v6 : Vec F S1x128 .f32) : FVec F S4096x128 .f32 :=
  have v5 : FVec F S64x128 .f32 := shapeCast S64x128 v4 shapeCasts_S64x128_S64x128
  have v7 : FVec F S1x128 .f32 := shapeCast S1x128 v6 shapeCasts_S1x128_S1x128
  have v8 : FVec F S4096x64 .f32 := mulf v3 v3
  have v9 : FVec F S4096 .f32 := multiReduction .add [1] S4096 v8 0x00000000#32 reduces_S4096x64_S4096 (.inl rfl) rfl
  have v10 : FVec F S4096x1 .f32 := shapeCast S4096x1 v9 shapeCasts_S4096_S4096x1
  have cst_6 : FVec F S4096x128 .f32 := constant S4096x128 .f32 0x00000000#32
  have v11 : FVec F S4096x128 .f32 := matmul dot_S4096x64_S64x128_S4096x128_1_0_0_1_n_n (some .fp32) v3 v5 cst_6
  have cst_7 : F .f32 := Scalar.ofBits .f32 0x40000000#32
  have v12 : FVec F S4096x128 .f32 := broadcast S4096x128 cst_7
  have v13 : FVec F S4096x128 .f32 := mulf v12 v11
  have v14 : FVec F S4096x128 .f32 := broadcastTo S4096x128 v10 broadcasts_S4096x1_S4096x128
  have v15 : FVec F S4096x128 .f32 := subf v14 v13
  have v16 : FVec F S4096x128 .f32 := broadcastTo S4096x128 v7 broadcasts_S1x128_S4096x128
  have v17 : FVec F S4096x128 .f32 := addf v15 v16
  have cst_8 : F .f32 := Scalar.ofBits .f32 0x00000000#32
  have v18 : FVec F S4096x128 .f32 := broadcast S4096x128 cst_8
  have v19 : FVec F S4096x128 .f32 := subf v18 v17
  have cst_9 : F .f32 := Scalar.ofBits .f32 0x3F000000#32
  have v20 : FVec F S4096x128 .f32 := broadcast S4096x128 cst_9
  have v21 : FVec F S4096x128 .f32 := mulf v19 v20
  have v22 : FVec F S4096x128 .f32 := exp v21
  v22

/-- The stored accumulator is the one read plus the product, over the rows, of the weights and the tile. -/
theorem pay2_eq (v3 : Vec F S4096x64 .f32) (v4 : Vec F S64x128 .f32) (v6 : Vec F S1x128 .f32) (v26 : Vec F S128x64 .f32) :
    k0_pay2 v3 v4 v6 v26 = shapeCast S128x64 (addf v26 (matmul dot_S4096x128_S4096x64_S128x64_0_0_1_1_n_n none
      (truncf .bf16 (tileRbf v3 v4 v6) bitsLt_bf16_f32) (truncf .bf16 v3 bitsLt_bf16_f32) (constant S128x64 .f32 0x00000000#32)))
      shapeCasts_S128x64_S128x64 := rfl

/-- The output block at `(u, o, i)` is the accumulator at `(o, i)`. -/
theorem pay3_apply (v : Vec F S128x64 .f32) (u : Fin 1) (o : Fin 128) (i : Fin 64) :
    k0_pay3 v (ix3 u o i) = v (ix2 o i) := by
  unfold k0_pay3
  exact shapeCast_ab_1ab_apply v shapeCasts_S128x64_S1x128x64 u o i

end Generic

/-! ## At the extended reals -/

theorem exp_apply {s : Shape} {φ : FTy} (a : FVec Ideal s φ) (i : s.Idx) : exp a i = Ideal.exp (a i) := rfl

/-- The zero block is `0` everywhere. -/
theorem pay1_apply (j : S128x64.Idx) : k0_pay1 (F := Ideal) j = 0 := by
  unfold k0_pay1
  rw [shapeCast_self]
  exact Ideal.ofBits_zero_f32

/-- The lane sum of a tile at row `n` is the sum over the 64 coordinates. -/
theorem rowSum_apply (v : FVec Ideal S4096x64 .f32) (n : Fin 4096) :
    multiReduction .add [1] S4096 v 0x00000000#32 reduces_S4096x64_S4096 (.inl rfl) rfl (ix1 n) = ∑ k : Fin 64, v (ix2 n k) := by
  refine (Ideal.multiReduction_add_single v 0x00000000#32 reduces_S4096x64_S4096 (.inl rfl) rfl (ix1 n)).trans ?_
  refine Finset.sum_congr rfl fun k _ => congrArg v ?_
  exact funext fun a => Fin.ext (by match a with | ⟨0, _⟩ => rfl | ⟨1, _⟩ => rfl)

/-! ### The first product: rows times columns -/

theorem mm1_lhs0 (j : S4096x128.Idx) (q : dot_S4096x64_S64x128_S4096x128_1_0_0_1_n_n.contr.Idx) : (dot_S4096x64_S64x128_S4096x128_1_0_0_1_n_n.lhsIdx j q 0).val = (j 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem mm1_lhs1 (j : S4096x128.Idx) (q : dot_S4096x64_S64x128_S4096x128_1_0_0_1_n_n.contr.Idx) : (dot_S4096x64_S64x128_S4096x128_1_0_0_1_n_n.lhsIdx j q 1).val = (q ⟨0, by decide⟩).val :=
  dot_S4096x64_S64x128_S4096x128_1_0_0_1_n_n.lhsIdx_val_of_single rfl j q
theorem mm1_rhs0 (j : S4096x128.Idx) (q : dot_S4096x64_S64x128_S4096x128_1_0_0_1_n_n.contr.Idx) : (dot_S4096x64_S64x128_S4096x128_1_0_0_1_n_n.rhsIdx j q 0).val = (q ⟨0, by decide⟩).val :=
  dot_S4096x64_S64x128_S4096x128_1_0_0_1_n_n.rhsIdx_val_of_single rfl j q
theorem mm1_rhs1 (j : S4096x128.Idx) (q : dot_S4096x64_S64x128_S4096x128_1_0_0_1_n_n.contr.Idx) : (dot_S4096x64_S64x128_S4096x128_1_0_0_1_n_n.rhsIdx j q 1).val = (j 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The tile times the transposed centres, into zero, at `(n, o)`: the sum over the 64 coordinates. -/
theorem mm1_apply (l : FVec Ideal S4096x64 .f32) (r : FVec Ideal S64x128 .f32) (n : Fin 4096) (o : Fin 128) :
    matmul dot_S4096x64_S64x128_S4096x128_1_0_0_1_n_n (some .fp32) l r (constant (F := Ideal) S4096x128 .f32 0x00000000#32) (ix2 n o)
      = ∑ k : Fin 64, l (ix2 n k) * r (ix2 k o) := by
  simp only [matmul]
  rw [Ideal.matmul_constant_zero_apply, ← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 n o) ((contrEquiv1 dot_S4096x64_S64x128_S4096x128_1_0_0_1_n_n 64 rfl rfl).symm k) = ix2 n k := funext fun a => Fin.ext (by
    match a with
    | ⟨0, _⟩ => exact mm1_lhs0 _ _
    | ⟨1, _⟩ => exact (mm1_lhs1 _ _).trans hk)
  have er : dot_S4096x64_S64x128_S4096x128_1_0_0_1_n_n.rhsIdx (ix2 n o) ((contrEquiv1 dot_S4096x64_S64x128_S4096x128_1_0_0_1_n_n 64 rfl rfl).symm k) = ix2 k o := funext fun a => Fin.ext (by
    match a with
    | ⟨0, _⟩ => exact (mm1_rhs0 _ _).trans hk
    | ⟨1, _⟩ => exact mm1_rhs1 _ _)
  rw [el, er]

/-! ### The second product: contracted over the rows of both operands -/

theorem mm2_lhs0 (j : S128x64.Idx) (q : dot_S4096x128_S4096x64_S128x64_0_0_1_1_n_n.contr.Idx) : (dot_S4096x128_S4096x64_S128x64_0_0_1_1_n_n.lhsIdx j q 0).val = (q ⟨0, by decide⟩).val :=
  dot_S4096x128_S4096x64_S128x64_0_0_1_1_n_n.lhsIdx_val_of_single rfl j q
theorem mm2_lhs1 (j : S128x64.Idx) (q : dot_S4096x128_S4096x64_S128x64_0_0_1_1_n_n.contr.Idx) : (dot_S4096x128_S4096x64_S128x64_0_0_1_1_n_n.lhsIdx j q 1).val = (j 0).val := by
  unfold DotDims.lhsIdx
  rw [dif_neg (show ¬(1 : Fin S4096x128.rank) ∈ dot_S4096x128_S4096x64_S128x64_0_0_1_1_n_n.lhsBatch by decide), dif_pos (show (1 : Fin S4096x128.rank) ∈ dot_S4096x128_S4096x64_S128x64_0_0_1_1_n_n.lhsNonContracting by decide)]
  rfl
theorem mm2_rhs0 (j : S128x64.Idx) (q : dot_S4096x128_S4096x64_S128x64_0_0_1_1_n_n.contr.Idx) : (dot_S4096x128_S4096x64_S128x64_0_0_1_1_n_n.rhsIdx j q 0).val = (q ⟨0, by decide⟩).val :=
  dot_S4096x128_S4096x64_S128x64_0_0_1_1_n_n.rhsIdx_val_of_single rfl j q
theorem mm2_rhs1 (j : S128x64.Idx) (q : dot_S4096x128_S4096x64_S128x64_0_0_1_1_n_n.contr.Idx) : (dot_S4096x128_S4096x64_S128x64_0_0_1_1_n_n.rhsIdx j q 1).val = (j 1).val := by
  unfold DotDims.rhsIdx
  rw [dif_neg (show ¬(1 : Fin S4096x64.rank) ∈ dot_S4096x128_S4096x64_S128x64_0_0_1_1_n_n.rhsBatch by decide), dif_pos (show (1 : Fin S4096x64.rank) ∈ dot_S4096x128_S4096x64_S128x64_0_0_1_1_n_n.rhsNonContracting by decide)]
  rfl

/-- The weights against the tile, contracted over the 4096 rows, into zero, at `(o, i)`. -/
theorem mm2_apply (l : FVec Ideal S4096x128 .bf16) (r : FVec Ideal S4096x64 .bf16) (o : Fin 128) (i : Fin 64) :
    matmul dot_S4096x128_S4096x64_S128x64_0_0_1_1_n_n none l r (constant (F := Ideal) S128x64 .f32 0x00000000#32) (ix2 o i)
      = ∑ n : Fin 4096, l (ix2 n o) * r (ix2 n i) := by
  simp only [matmul]
  rw [Ideal.matmul_constant_zero_apply, ← Equiv.sum_comp (contrEquiv1 dot_S4096x128_S4096x64_S128x64_0_0_1_1_n_n 4096 rfl rfl).symm]
  refine Finset.sum_congr rfl fun k _ => ?_
  have hk := contrEquiv1_symm_val dot_S4096x128_S4096x64_S128x64_0_0_1_1_n_n 4096 rfl rfl k
  have el : dot_S4096x128_S4096x64_S128x64_0_0_1_1_n_n.lhsIdx (ix2 o i) ((contrEquiv1 dot_S4096x128_S4096x64_S128x64_0_0_1_1_n_n 4096 rfl rfl).symm k) = ix2 k o := funext fun a => Fin.ext (by
    match a with
    | ⟨0, _⟩ => exact (mm2_lhs0 _ _).trans hk
    | ⟨1, _⟩ => exact mm2_lhs1 _ _)
  have er : dot_S4096x128_S4096x64_S128x64_0_0_1_1_n_n.rhsIdx (ix2 o i) ((contrEquiv1 dot_S4096x128_S4096x64_S128x64_0_0_1_1_n_n 4096 rfl rfl).symm k) = ix2 k i := funext fun a => Fin.ext (by
    match a with
    | ⟨0, _⟩ => exact (mm2_rhs0 _ _).trans hk
    | ⟨1, _⟩ => exact mm2_rhs1 _ _)
  rw [el, er]

/-! ### The weights and the payload -/

/-- The tile's weight at `(n, o)` is the weight of row `n` against the centre `cr`, when column `o` of the
    transposed centres is `cr` and entry `o` of the norms row is `|cr|²`. -/
theorem tileRbf_apply (x0 : Vec Ideal S4096x64 .f32) (x1 : Vec Ideal S64x128 .f32) (x2 : Vec Ideal S1x128 .f32)
    (cr : Fin 64 → EReal) (o : Fin 128)
    (h1 : ∀ k : Fin 64, x1 (ix2 k o) = cr k) (h2 : x2 (ix2 (0 : Fin 1) o) = rowSq cr) (n : Fin 4096) :
    tileRbf (F := Ideal) x0 x1 x2 (ix2 n o) = weight (fun k => x0 (ix2 n k)) cr := by
  unfold tileRbf
  simp only [shapeCast_self]
  rw [exp_apply, mulf_apply, subf_apply, broadcast_apply, broadcast_apply, addf_apply, subf_apply, mulf_apply,
    broadcast_apply, broadcastTo_a1_ab_apply, shapeCast_a_a1_apply, rowSum_apply, broadcastTo_1b_ab_apply, mm1_apply, h2]
  simp only [mulf_apply, h1]
  rw [← weight_half]
  rfl

/-- The stored accumulator at `(o, i)`: the one read, plus the histogram of the tile's rows against centre `o`. -/
theorem pay2_apply (x0 : Vec Ideal S4096x64 .f32) (x1 : Vec Ideal S64x128 .f32) (x2 : Vec Ideal S1x128 .f32)
    (acc : Vec Ideal S128x64 .f32) (cr : Fin 64 → EReal) (o : Fin 128)
    (h1 : ∀ k : Fin 64, x1 (ix2 k o) = cr k) (h2 : x2 (ix2 (0 : Fin 1) o) = rowSq cr) (i : Fin 64) :
    k0_pay2 (F := Ideal) x0 x1 x2 acc (ix2 o i) = acc (ix2 o i) + hist (fun n k => x0 (ix2 n k)) cr i := by
  rw [pay2_eq, shapeCast_self, addf_apply, mm2_apply]
  unfold hist
  refine congrArg (acc (ix2 o i) + ·) (Finset.sum_congr rfl fun n _ => ?_)
  rw [truncf_apply, truncf_apply, tileRbf_apply x0 x1 x2 cr o h1 h2 n]

end Cert.KernelIdeal.Tile

end
-- ==== Proof.EntryBlocks.lean ====
/-
  What the region finds in its input windows.

  Window 0's block at grid point `t` is rows `4096·t … 4096·t + 4095` of `x` (the index map sends point
  `(core, step)` to block `64·core + step`, which is the point's own position `t` in the grid's order). Windows 1 and 2
  are whole arrays that the host computed before the region: the transpose of the centres, whose entry `(k, o)` is the
  centres' entry `(o, k)`, and the one-row matrix of the centres' squared norms, whose entry `(0, o)` is the host's
  sum, from the zero word, of the squares of centre `o`'s coordinates. The output window's block at point `t` is slab
  `t / 64` of the `[2, 128, 64]` result.
-/
import proofs.«109333_j40175124087486_2_alg».proof.Proof.Gen.KernelIdeal.Frame
import proofs.«109333_j40175124087486_2_alg».proof.Proof.LibRbfHistogram
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem

namespace Cert.KernelIdeal.Entry

open Cert.KernelIdeal Cert.KernelIdeal.Gen Cert.RbfHistogram Idealize.ShloMosaic.ValueIdx

/-- The windows' block indices at every grid point, decided over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 64 ∧ win0_3.index t (1 : Fin 3) = 0 ∧ win0_3.index t (2 : Fin 3) = 0 :=
  (by decide +kernel : ∀ t : Fin grid0.N, _)

section Generic
variable {F : FTy → Type} [FloatOps F]
variable (m : (ℓ : Loc nD τ sig) → Buf (Elt F) ℓ)

/-- The region finds the transposed centres in window 1's array. -/
theorem V_bct (c : Dev nD) : (V m c main_v0 : S64x128.Idx → Elt F .f32)
    = transpose S64x128 [1, 0] (m ((c : Thread nD τ).loc main_arg1)) transposes_S128x64_S64x128_1_0 := by
  show StableHlo.after hostOps0 (fun b => m (c, b)) (Proc.devRef .tc main_v0) = _
  after_results

/-- The region finds the centres' squared norms, as one row, in window 2's array. -/
theorem V_c2 (c : Dev nD) : (V m c main_v3 : S1x128.Idx → Elt F .f32)
    = broadcastInDim S1x128 ![1] bcast_S128_S1x128_1
        (Host.reduceAdd (mulf (m ((c : Thread nD τ).loc main_arg1)) (m ((c : Thread nD τ).loc main_arg1)))
          (constant S_ .f32 0x00000000#32) reducesTo_S128x64_S128_d1 h_S_) := by
  show StableHlo.after hostOps0 (fun b => m (c, b)) (Proc.devRef .tc main_v3) = _
  after_results

/-- Window 0's block at point `t`, entry `(n, k)`: row `4096·t + n` of `x`. -/
theorem tile_apply (c : Dev nD) (t : Fin cfg0.N) (n : Fin 4096) (k : Fin 64) (r : Fin 524288)
    (hr : r.val = t.val * 4096 + n.val) :
    (iblk m c 0 t : Vec F S4096x64 .f32) (ix2 n k) = m ((c : Thread nD τ).loc main_arg0) (ix2 r k) := by
  unfold iblk
  rw [View.read_apply]
  show V m c main_arg0 (((cfg0.win 0).blk t).view.emb (ix2 n k)) = _
  rw [V_main_arg0]
  refine congrArg _ (funext fun a => Fin.ext ?_)
  obtain ⟨e0, e1, -⟩ := idx_facts t
  match a with
  | ⟨0, _⟩ => show win0_0.index t (0 : Fin 2) * 4096 + 1 * n.val = r.val; omega
  | ⟨1, _⟩ => show win0_0.index t (1 : Fin 2) * 64 + 1 * k.val = k.val; omega

/-- Window 1's block at any point, entry `(k, o)`: the centres' entry `(o, k)`. -/
theorem bct_apply (c : Dev nD) (t : Fin cfg0.N) (k : Fin 64) (o : Fin 128) :
    (iblk m c 1 t : Vec F S64x128 .f32) (ix2 k o) = m ((c : Thread nD τ).loc main_arg1) (ix2 o k) := by
  unfold iblk
  rw [View.read_apply]
  show V m c main_v0 (((cfg0.win 1).blk t).view.emb (ix2 k o)) = _
  have e : ((cfg0.win 1).blk t).view.emb (ix2 k o) = ix2 k o := funext fun a => Fin.ext (by
    obtain ⟨-, -, e2, e3, -⟩ := idx_facts t
    match a with
    | ⟨0, _⟩ => show win0_1.index t (0 : Fin 2) * 64 + 1 * k.val = k.val; omega
    | ⟨1, _⟩ => show win0_1.index t (1 : Fin 2) * 128 + 1 * o.val = o.val; omega)
  rw [e, V_bct, transpose_ix2_apply]

end Generic

/-- Window 2's block at any point, entry `(0, o)`, at the extended reals: `|c_o|²`. -/
theorem c2_apply (m : (ℓ : Loc nD τ sig) → Buf (Elt Ideal) ℓ) (c : Dev nD) (t : Fin cfg0.N) (o : Fin 128) :
    (iblk m c 2 t : Vec Ideal S1x128 .f32) (ix2 (0 : Fin 1) o)
      = rowSq (fun k : Fin 64 => m ((c : Thread nD τ).loc main_arg1) (ix2 o k)) := by
  unfold iblk
  rw [View.read_apply]
  show V m c main_v3 (((cfg0.win 2).blk t).view.emb (ix2 (0 : Fin 1) o)) = _
  have e : ((cfg0.win 2).blk t).view.emb (ix2 (0 : Fin 1) o) = ix2 (0 : Fin 1) o := funext fun a => Fin.ext (by
    obtain ⟨-, -, -, -, e4, e5, -⟩ := idx_facts t
    match a with
    | ⟨0, _⟩ => show win0_2.index t (0 : Fin 2) * 1 + 1 * 0 = 0; omega
    | ⟨1, _⟩ => show win0_2.index t (1 : Fin 2) * 128 + 1 * o.val = o.val; omega)
  rw [e, V_c2]
  rw [broadcastInDim_apply _ bcast_S128_S1x128_1 _ (ix2 (0 : Fin 1) o) (ix1 o) (fun a => match a with
    | ⟨0, _⟩ => by show o.val = if (128 : Nat) = 1 then 0 else o.val; rw [if_neg (by decide)])]
  simp only [Host.reduceAdd, Ideal.hostReduceAdd_def]
  rw [Ideal.hostReduceAdd_single reducesTo_S128x64_S128_d1 (by decide)]
  unfold rowSq
  have hz : (Ideal.ofBits .f32 0x00000000#32 : EReal) = 0 := Ideal.ofBits_zero_f32
  show (Ideal.ofBits .f32 0x00000000#32 : EReal) + (∑ k : Fin 64, (_ : EReal)) = _
  rw [hz, zero_add]
  refine Finset.sum_congr rfl fun k _ => ?_
  have ek : (by decide : S128x64.Reduces [1] S128).lift (ix1 o) k = ix2 o k :=
    funext fun a => Fin.ext (by match a with | ⟨0, _⟩ => rfl | ⟨1, _⟩ => rfl)
  rw [ek]
  rfl

end Cert.KernelIdeal.Entry

end
-- ==== Proof.Accumulation.lean ====
/-
  The accumulator, grid point by grid point, in closed form.

  The 128 grid points are two cores' runs of 64 tiles each; point `t` reads rows `4096·t … 4096·t + 4095` of `x`.
  Write `T p (o, i)` for the histogram of tile `p`'s 4096 rows against centre `o` at coordinate `i`. At the first
  tile of a core the accumulator ends at `0 + T t`; at any other tile at what the tile before left plus `T t`. So after
  point `t` it holds the sum of `T p` over the tiles `p` of `t`'s own core up to `t`: `t − t mod 64, …, t`. At the
  last tile of a core the output block holds the same values under a leading unit axis.
-/
import proofs.«109333_j40175124087486_2_alg».proof.Proof.Pieces
import proofs.«109333_j40175124087486_2_alg».proof.Proof.TileValue
import proofs.«109333_j40175124087486_2_alg».proof.Proof.EntryBlocks

noncomputable section

open Idealize.ShloMosaic Idealize.ShloMosaic.TcCoe Idealize.SL.Sem

namespace Cert.KernelIdeal.Accum

open Cert.KernelIdeal Cert.KernelIdeal.Gen Cert.RbfHistogram Idealize.ShloMosaic.ValueIdx

variable (m : (ℓ : Loc nD τ sig) → Buf (Elt Ideal) ℓ)

/-- Row `r` of `x` (past the array's end, which no tile reaches, `0`). -/
def rows (c : Dev nD) (r : ℕ) : Fin 64 → EReal :=
  fun k => if h : r < 524288 then m ((c : Thread nD τ).loc main_arg0) (ix2 ⟨r, h⟩ k) else 0

/-- Centre `o`. -/
def centre (c : Dev nD) (o : Fin 128) : Fin 64 → EReal := fun k => m ((c : Thread nD τ).loc main_arg1) (ix2 o k)

/-- Tile `p`'s contribution at `(o, i)`: the histogram of its 4096 rows against centre `o`. -/
def tileHist (c : Dev nD) (p : ℕ) (o : Fin 128) (i : Fin 64) : EReal :=
  hist (N := 4096) (fun q => rows m c (p * 4096 + q.val)) (centre m c o) i

/-- Row `n` of window 0's block at point `t` is row `4096·t + n` of `x`. -/
theorem tile_rows (c : Dev nD) (t : Fin cfg0.N) (n : Fin 4096) :
    (fun k : Fin 64 => (iblk m c 0 t : Vec Ideal S4096x64 .f32) (ix2 n k)) = rows m c (t.val * 4096 + n.val) := by
  have hN : cfg0.N = 128 := N_0
  have ht := t.isLt
  have hn := n.isLt
  have hr : t.val * 4096 + n.val < 524288 := by omega
  funext k
  unfold rows
  rw [dif_pos hr]
  exact Entry.tile_apply m c t n k ⟨_, hr⟩ rfl

/-- One run at point `t` adds tile `t`'s contribution to the accumulator it read. -/
theorem pay_at (c : Dev nD) (t : Fin cfg0.N) (acc : Vec Ideal S128x64 .f32) (o : Fin 128) (i : Fin 64) :
    k0_pay2 (F := Ideal) (iblk m c 0 t) (iblk m c 1 t) (iblk m c 2 t) acc (ix2 o i) = acc (ix2 o i) + tileHist m c t.val o i := by
  refine (Tile.pay2_apply (iblk m c 0 t) (iblk m c 1 t) (iblk m c 2 t) acc (centre m c o) o
    (fun k => Entry.bct_apply m c t k o) (Entry.c2_apply m c t o) i).trans ?_
  unfold tileHist
  refine congrArg (acc (ix2 o i) + ·) ?_
  exact congrArg (fun x => hist x (centre m c o) i) (funext fun n => tile_rows m c t n)

/-- At the first tile of a core the accumulator ends at the tile's contribution. -/
theorem first_step (c : Dev nD) (t : Fin cfg0.N) (h0 : t.val % 64 = 0) (o : Fin 128) (i : Fin 64) :
    (outsAt0 m c t.val t.isLt).2 (ix2 o i) = tileHist m c t.val o i := by
  have h1 : ¬t.val % 64 = 63 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)) (ix2 o i)).trans ?_
  refine (pay_at m c t (k0_pay1 (F := Ideal)) o i).trans ?_
  rw [Tile.pay1_apply, zero_add]

/-- At any other tile it ends at what the tile before left plus the tile's contribution. -/
theorem next_step (c : Dev nD) (t : Fin cfg0.N) (h0 : ¬t.val % 64 = 0) (o : Fin 128) (i : Fin 64) :
    (outsAt0 m c t.val t.isLt).2 (ix2 o i) = (outsAt0 m c (t.val - 1) (Nat.lt_of_le_of_lt (Nat.sub_le _ _) t.isLt)).2 (ix2 o i) + tileHist m c t.val o i := by
  by_cases h1 : t.val % 64 = 63
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 o i)).trans ?_
    exact pay_at m c t (outsAt0 m c (t.val - 1) (Nat.lt_of_le_of_lt (Nat.sub_le _ _) t.isLt)).2 o i
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 o i)).trans ?_
    exact pay_at m c t (outsAt0 m c (t.val - 1) (Nat.lt_of_le_of_lt (Nat.sub_le _ _) t.isLt)).2 o i

/-- After point `n` the accumulator holds the contributions of the tiles of `n`'s core up to `n`. -/
theorem acc_eq (c : Dev nD) : ∀ (n : ℕ) (h : n < cfg0.N) (o : Fin 128) (i : Fin 64),
    (outsAt0 m c n h).2 (ix2 o i) = ∑ j ∈ Finset.range (n % 64 + 1), tileHist m c (n - n % 64 + j) o i
  | 0, h, o, i => by
    rw [first_step m c ⟨0, h⟩ (Nat.zero_mod 64) o i]
    simp
  | n + 1, h, o, i => by
    by_cases h0 : (n + 1) % 64 = 0
    · rw [first_step m c ⟨n + 1, h⟩ h0 o i, h0]
      simp
    · rw [next_step m c ⟨n + 1, h⟩ h0 o i]
      show (outsAt0 m c n _).2 (ix2 o i) + tileHist m c (n + 1) o i = _
      rw [acc_eq c n (Nat.lt_of_succ_lt h) o i]
      have e1 : (n + 1) % 64 = n % 64 + 1 := by omega
      have e2 : n + 1 - (n % 64 + 1) = n - n % 64 := by omega
      have e3 : n - n % 64 + (n % 64 + 1) = n + 1 := by omega
      rw [e1, e2, Finset.sum_range_succ _ (n % 64 + 1), e3]

/-- After the last tile of a core: the contributions of the core's 64 tiles. -/
theorem acc_last_tile (c : Dev nD) (t : Fin cfg0.N) (h1 : t.val % 64 = 63) (o : Fin 128) (i : Fin 64) :
    (outsAt0 m c t.val t.isLt).2 (ix2 o i) = ∑ j ∈ Finset.range 64, tileHist m c (t.val / 64 * 64 + j) o i := by
  rw [acc_eq m c t.val t.isLt o i, h1]
  have e : t.val - 63 = t.val / 64 * 64 := by omega
  rw [e]

/-- The output block at the last tile of a core is the accumulator under a leading unit axis. -/
theorem out_eq (c : Dev nD) (t : Fin cfg0.N) (h1 : t.val % 64 = 63) (u : Fin 1) (o : Fin 128) (i : Fin 64) :
    (outsAt0 m c t.val t.isLt).1 (ix3 u o i) = (outsAt0 m c t.val t.isLt).2 (ix2 o i) := by
  have h0 : ¬t.val % 64 = 0 := by omega
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix3 u o i)).trans ?_
  refine (Tile.pay3_apply _ u o i).trans ?_
  exact (congrFun (Pieces.acc_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 o i)).symm

end Cert.KernelIdeal.Accum

end
-- ==== Proof.KernelHistogram.lean ====
/-
  The kernel's result is the radial-basis-weighted histogram of all 524288 rows.

  Slab `s` of the region's `[2, 128, 64]` output is written once, after the last tile of core `s`, and holds the sum of
  the contributions of that core's 64 tiles; the two write-backs cover the array. The host then adds the two slabs from
  the zero word. A sum over two cores of sums over 64 tiles of histograms of 4096 rows is, regrouped, the histogram of
  the `2 · 64 · 4096 = 524288` rows — addition on the extended reals is commutative and associative, so no finiteness
  is used.
-/
import proofs.«109333_j40175124087486_2_alg».proof.Proof.Accumulation
import Idealize.ShloMosaic.Lib.Pipeline.Value
import Idealize.ShloMosaic.Lib.Pipeline.FrameSuffix
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.RbfHistogram Idealize.ShloMosaic.ValueIdx
open Cert.KernelIdeal.Accum (rows centre tileHist)

variable (m : (ℓ : Loc nD τ sig) → Buf (Elt Ideal) ℓ) (ρ : Dev nD → PrngReg)

/-! ## The region's output array -/

/-- The `[2, 128, 64]` array after the region: slab `s` holds the contributions of core `s`'s 64 tiles. -/
def slabs (c : Dev nD) : S2x128x64.Idx → EReal :=
  fun j => ∑ jj ∈ Finset.range 64, tileHist m c ((j 0).val * 64 + jj) (j 1) (j 2)

/-- The output block after the last tile of a core is the block of `slabs` the window names there. -/
theorem out_block (c : Dev nD) (t : Fin cfg0.N) (h1 : t.val % 64 = 63) (y : S1x128x64.Idx) :
    (outsAt0 m c t.val t.isLt).1 y = slabs m c (((cfg0.win 3).blk t).view.emb y) := by
  obtain ⟨u, o, i, rfl⟩ : ∃ (u : Fin 1) (o : Fin 128) (i : Fin 64), y = ix3 u o i := ⟨y 0, y 1, y 2, eq_ix3 y⟩
  rw [Accum.out_eq m c t h1 u o i, Accum.acc_last_tile m c t h1 o i]
  obtain ⟨-, -, -, -, -, -, e6, e7, e8⟩ := Entry.idx_facts t
  have hu : u.val = 0 := by omega
  have c0 : ((((cfg0.win 3).blk t).view.emb (ix3 u o i)) 0).val = t.val / 64 := by
    show win0_3.index t (0 : Fin 3) * 1 + 1 * u.val = t.val / 64
    omega
  have c1 : (((cfg0.win 3).blk t).view.emb (ix3 u o i)) 1 = o := Fin.ext (by
    show win0_3.index t (1 : Fin 3) * 128 + 1 * o.val = o.val
    omega)
  have c2 : (((cfg0.win 3).blk t).view.emb (ix3 u o i)) 2 = i := Fin.ext (by
    show win0_3.index t (2 : Fin 3) * 64 + 1 * i.val = i.val
    omega)
  show _ = ∑ jj ∈ Finset.range 64, tileHist m c (((((cfg0.win 3).blk t).view.emb (ix3 u o i)) 0).val * 64 + jj)
    ((((cfg0.win 3).blk t).view.emb (ix3 u o i)) 1) ((((cfg0.win 3).blk t).view.emb (ix3 u o i)) 2)
  rw [c0, c1, c2]

/-- What a write-back of the output window writes is the window's block of `slabs`. -/
theorem flushed_eq (c : Dev nD) (t : Fin cfg0.N) (hf : (cfg0.win 3).flush t = true) :
    (dats m 0 c).flushed 3 t = ((cfg0.win 3).blk t).view.read (Elt Ideal) (slabs m c) := by
  have h1 : t.val % 64 = 63 := (flush0_3 t).mp hf
  show (cfg0.win 3).cut (grid0.coords t) ((dats m 0 c).after 3 t) = _
  rw [after0_3]
  funext y
  rw [View.read_apply]
  exact out_block m c t h1 y

/-- An index of the output array is in point `t`'s block iff each coordinate is in the block's range on its axis. -/
theorem mem_blk (t : Fin cfg0.N) (i : S2x128x64.Idx) :
    i ∈ ((cfg0.win 3).blk t).view.set ↔ ∀ a : Fin 3, win0_3.index t a * S1x128x64.size a ≤ (i a).val
      ∧ (i a).val < win0_3.index t a * S1x128x64.size a + S1x128x64.size a := by
  show i ∈ ((View.whole main_v4).slice (win0_3.rect t)).set ↔ _
  rw [View.set_slice_whole, Rect.mem_set_unit]
  exact Iff.rfl

/-- The two write-backs cover the output array: slab `s` is written after point `64·s + 63`. -/
theorem cover (i : S2x128x64.Idx) :
    ∃ t : Fin cfg0.N, (cfg0.win 3).flush t = true ∧ i ∈ ((cfg0.win 3).blk t).view.set := by
  have hN : cfg0.N = 128 := N_0
  have h0 : (i 0).val < 2 := (i 0).isLt
  have h1 : (i 1).val < 128 := (i 1).isLt
  have h2 : (i 2).val < 64 := (i 2).isLt
  have hlt : (i 0).val * 64 + 63 < cfg0.N := by omega
  refine ⟨⟨(i 0).val * 64 + 63, hlt⟩, (flush0_3 _).mpr (by show ((i 0).val * 64 + 63) % 64 = 63; omega), ?_⟩
  rw [mem_blk]
  obtain ⟨-, -, -, -, -, -, e6, e7, e8⟩ := Entry.idx_facts ⟨(i 0).val * 64 + 63, hlt⟩
  have e6' : win0_3.index ⟨(i 0).val * 64 + 63, hlt⟩ (0 : Fin 3) = (i 0).val := by rw [e6]; show ((i 0).val * 64 + 63) / 64 = (i 0).val; omega
  intro a
  match a with
  | ⟨0, _⟩ =>
    show win0_3.index ⟨(i 0).val * 64 + 63, hlt⟩ (0 : Fin 3) * 1 ≤ (i 0).val
      ∧ (i 0).val < win0_3.index ⟨(i 0).val * 64 + 63, hlt⟩ (0 : Fin 3) * 1 + 1
    omega
  | ⟨1, _⟩ =>
    show win0_3.index ⟨(i 0).val * 64 + 63, hlt⟩ (1 : Fin 3) * 128 ≤ (i 1).val
      ∧ (i 1).val < win0_3.index ⟨(i 0).val * 64 + 63, hlt⟩ (1 : Fin 3) * 128 + 128
    omega
  | ⟨2, _⟩ =>
    show win0_3.index ⟨(i 0).val * 64 + 63, hlt⟩ (2 : Fin 3) * 64 ≤ (i 2).val
      ∧ (i 2).val < win0_3.index ⟨(i 0).val * 64 + 63, hlt⟩ (2 : Fin 3) * 64 + 64
    omega

/-- So the output array ends holding `slabs`. -/
theorem final (c : Dev nD) : (dats m 0 c).arrAt 3 cfg0.N = slabs m c :=
  (dats m 0 c).arrAt_eq_of_cover 3 (slabs m c) (fun t hf => flushed_eq m c t hf) cover

/-! ## The host's sum of the two slabs -/

/-- The host line after the region leaves, in the result buffer, the sum over the slab axis from the zero word. -/
theorem tail_eq (c : Dev nD) : Pipeline.afterTail₀ cfgs (dats m) 0 (V0 m) [hostOps1] c main_v5
    = Host.reduceAdd (F := Ideal) (slabs m c) (constant (F := Ideal) S_ .f32 0x00000000#32) reducesTo_S2x128x64_S128x64_d0 h_S_ := by
  unfold Pipeline.afterTail₀
  show StableHlo.after hostOps1 _ (Proc.devRef .tc main_v5) = _
  after_results
  rw [(Pipeline.withArrays_arr spec0 launch0.win.arr_inj c _ _ 3).trans (final m c)]

/-- That sum at `(o, i)`: the two slabs' entries added. -/
theorem tail_apply (c : Dev nD) (o : Fin 128) (i : Fin 64) :
    Host.reduceAdd (F := Ideal) (slabs m c) (constant (F := Ideal) S_ .f32 0x00000000#32) reducesTo_S2x128x64_S128x64_d0 h_S_ (ix2 o i)
      = ∑ s : Fin 2, slabs m c (ix3 s o i) := by
  simp only [Host.reduceAdd, Ideal.hostReduceAdd_def]
  rw [Ideal.hostReduceAdd_single reducesTo_S2x128x64_S128x64_d0 (by decide)]
  have hz : (Ideal.ofBits .f32 0x00000000#32 : EReal) = 0 := Ideal.ofBits_zero_f32
  show (Ideal.ofBits .f32 0x00000000#32 : EReal) + (∑ k : Fin 2, (_ : EReal)) = _
  rw [hz, zero_add]
  refine Finset.sum_congr rfl fun k _ => congrArg (slabs m c) ?_
  exact funext fun a => Fin.ext (by match a with | ⟨0, _⟩ => rfl | ⟨1, _⟩ => rfl | ⟨2, _⟩ => rfl)

/-! ## Regrouping: cores × tiles × rows is all the rows -/

/-- All the rows of `x`, as a family over `128 · 4096` indices. -/
def allRows (c : Dev nD) : Fin (128 * 4096) → Fin 64 → EReal := fun r k => m ((c : Thread nD τ).loc main_arg0) (ix2 r k)

/-- Tile `p`'s rows are block `p` of all the rows. -/
theorem tileHist_eq (c : Dev nD) (p : Fin 128) (o : Fin 128) (i : Fin 64) :
    tileHist m c p.val o i = hist (fun q : Fin 4096 => allRows m c (blockIdx p q)) (centre m c o) i := by
  unfold tileHist
  refine congrArg (fun x => hist x (centre m c o) i) (funext fun q => funext fun k => ?_)
  have hlt : p.val * 4096 + q.val < 524288 := (blockIdx p q).isLt
  unfold rows
  rw [dif_pos hlt]
  rfl

/-- The two slabs' entries added are the histogram of all the rows. -/
theorem slabs_sum (c : Dev nD) (o : Fin 128) (i : Fin 64) :
    ∑ s : Fin 2, slabs m c (ix3 s o i) = hist (allRows m c) (centre m c o) i := by
  rw [hist_blocks 128 4096 (allRows m c) (centre m c o) i]
  rw [sum_blocks 2 64 (fun p : Fin (2 * 64) => hist (fun q : Fin 4096 => allRows m c (blockIdx p q)) (centre m c o) i)]
  refine Finset.sum_congr rfl fun s _ => ?_
  show ∑ jj ∈ Finset.range 64, tileHist m c (s.val * 64 + jj) o i = _
  rw [Finset.sum_range]
  refine Finset.sum_congr rfl fun jj _ => ?_
  exact tileHist_eq m c (blockIdx s jj) o i

/-! ## The run, read -/

/-- The kernel's result: entry `(o, i)` is the histogram of all the rows of `x` against centre `o` at coordinate `i`. -/
def result (c : Dev nD) : S128x64.Idx → EReal := fun j => hist (allRows m c) (centre m c (j 0)) (j 1)

theorem result_eq (c : Dev nD) : Pipeline.afterTail₀ cfgs (dats m) 0 (V0 m) [hostOps1] c main_v5 = result m c := by
  rw [tail_eq]
  funext j
  obtain ⟨o, i, rfl⟩ : ∃ (o : Fin 128) (i : Fin 64), j = ix2 o i := ⟨j 0, j 1, eq_ix2 j⟩
  rw [tail_apply, slabs_sum]
  rfl

/-- Every weakly fair execution of the idealized kernel ends with the result buffer at `result` and the arguments
    unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Result

end
-- ==== Proof.ReferenceHistogram.lean ====
/-
  The reference's result is the radial-basis-weighted histogram of all 524288 rows.

  Entry `(o, i)` of its last `dot_general` is the sum over the rows `n` of `rbf (n, o) · x (n, i)`, and
  `rbf (n, o)` is `exp (−d / 2)` of the squared distance between row `n` of `x` and centre `o`, spelled
  `(|x_n|² − 2·(x_n · c_o)) + |c_o|²`: the two squared norms are host sums from the zero word (`0 + ∑`), the
  inner product is the first `dot_general`, the broadcasts read the column `[N, 1]` and the row `[1, 128]` at
  the entry's own row and column.
-/
import proofs.«109333_j40175124087486_2_alg».proof.Proof.Gen.ReferenceIdeal.Read
import proofs.«109333_j40175124087486_2_alg».proof.Proof.LibRbfHistogram

noncomputable section

namespace Cert.ReferenceIdeal.Histogram

open Cert.ReferenceIdeal Cert.ReferenceIdeal.Read Cert.RbfHistogram
open Idealize.ShloMosaic Idealize.ShloMosaic.ValueIdx

/-- Row `n` of an `[N, 64]` array. -/
abbrev rowOf {N : ℕ} (x : (⟨2, ![N, 64]⟩ : Shape).Idx → EReal) (n : Fin N) : Fin 64 → EReal := fun k => x (ix2 n k)

/-- The weight the reference computes at `(n, o)`. -/
theorem rbf_apply (x0 : (⟨S524288x64, .f32⟩ : BufTy).Contents (Elt Ideal)) (x1 : (⟨S128x64, .f32⟩ : BufTy).Contents (Elt Ideal))
    (n : Fin 524288) (o : Fin 128) :
    val_main_v16 (F := Ideal) x0 x1 (ix2 n o) = weight (rowOf x0 n) (rowOf x1 o) := by
  have e1 : ∀ k : Fin 64, idx_main_v1 (idx_main_v2 (idx_main_v9 (ix2 n o))) k = ix2 n k := fun k =>
    funext fun a => Fin.ext (by match a with | ⟨0, _⟩ => rfl | ⟨1, _⟩ => rfl)
  have e4 : ∀ k : Fin 64, idx_main_v4 (idx_main_v5 (idx_main_v11 (ix2 n o))) k = ix2 o k := fun k =>
    funext fun a => Fin.ext (by match a with | ⟨0, _⟩ => rfl | ⟨1, _⟩ => rfl)
  have el : ∀ k : Fin 64, lidx_main_v6 (ix2 n o) k = ix2 n k := fun k =>
    funext fun a => Fin.ext (by match a with | ⟨0, _⟩ => rfl | ⟨1, _⟩ => rfl)
  have er : ∀ k : Fin 64, ridx_main_v6 (ix2 n o) k = ix2 o k := fun k =>
    funext fun a => Fin.ext (by match a with | ⟨0, _⟩ => rfl | ⟨1, _⟩ => rfl)
  rw [val_main_v16_apply, val_main_v15_apply, val_main_v13_apply, val_main_v14_apply, val_main_cst_2_apply,
    val_main_v12_apply, val_main_v10_apply, val_main_v11_apply, val_main_v5_apply, val_main_v4_apply,
    val_main_v9_apply, val_main_v2_apply, val_main_v1_apply, val_main_v8_apply, val_main_v7_apply,
    val_main_cst_1_apply, val_main_v6_apply]
  simp only [e1, e4, el, er, val_main_v0_apply, val_main_v3_apply, val_main_cst_apply, val_main_cst_0_apply,
    Ideal.hostUnary_exp_def, Ideal.hostDivf_def, Ideal.hostNegf_def, Ideal.negf_def, Ideal.addf_def, Ideal.subf_def,
    Ideal.mulf_def, Ideal.ofBits_def, Ideal.ofBits_zero_f32, zero_add]
  rfl

/-- The reference's result at `(o, i)`: the histogram of all the rows of `x` against centre `o`, at coordinate `i`. -/
theorem result_apply (x0 : (⟨S524288x64, .f32⟩ : BufTy).Contents (Elt Ideal)) (x1 : (⟨S128x64, .f32⟩ : BufTy).Contents (Elt Ideal))
    (o : Fin 128) (i : Fin 64) :
    val_main_v17 (F := Ideal) x0 x1 (ix2 o i) = hist (fun n => rowOf x0 n) (rowOf x1 o) i := by
  have el : ∀ n : Fin 524288, lidx_main_v17 (ix2 o i) n = ix2 n o := fun n =>
    funext fun a => Fin.ext (by match a with | ⟨0, _⟩ => rfl | ⟨1, _⟩ => rfl)
  have er : ∀ n : Fin 524288, ridx_main_v17 (ix2 o i) n = ix2 n i := fun n =>
    funext fun a => Fin.ext (by match a with | ⟨0, _⟩ => rfl | ⟨1, _⟩ => rfl)
  rw [val_main_v17_apply]
  unfold hist
  refine Finset.sum_congr rfl fun n _ => ?_
  rw [el, er, rbf_apply]

end Cert.ReferenceIdeal.Histogram

end
-- ==== Proof.lean ====
/-
  A histogram of 524288 points of ℝ⁶⁴ against 128 centres with radial-basis weights, on the extended reals.

  Both programs compute, at centre `o` and coordinate `i`, the sum over the points `n` of `w (n, o) · x (n, i)`, where
  `w (n, o) = exp (−d (n, o) / 2)` and `d (n, o) = (|x_n|² − 2·(x_n · c_o)) + |c_o|²`.

  The reference forms the 524288×128 weights at once and contracts them with `x` over the points. The kernel walks the
  points in 128 tiles of 4096, two cores taking 64 tiles each: a tile's weights come from a lane sum (the row norms), a
  matrix product with the transposed centres, and the centres' squared norms computed once on the host; the tile's
  128×64 contribution is a second matrix product contracted over the tile's rows, added into an accumulator that is
  zeroed at a core's first tile and copied out after its last; the host then adds the two cores' partial results.

  Three things separate the two sides, none needing the inputs to be finite. The exponent is written `(0 − d) · ½`
  in the kernel and `(−d) / 2` in the reference: equal on every extended real. The squared norms are sums started
  from the zero word on the host and plain lane sums in the kernel: `0 + s = s`. And the sum over the points is grouped
  by core, tile and row in the kernel: a finite sum in a commutative monoid, regrouped. The changes of float format in
  the kernel are the identity on the extended reals.

  The idealized kernel is the kernel's own text read at the extended reals (no rewrite was applied), so the
  idealization claim has no conjunct; the three frames are the generated frame runs.
-/
import proofs.«109333_j40175124087486_2_alg».proof.Defs
import proofs.«109333_j40175124087486_2_alg».proof.Proof.Gen.Kernel
import proofs.«109333_j40175124087486_2_alg».proof.Proof.Gen.Kernel.Frame
import proofs.«109333_j40175124087486_2_alg».proof.Proof.Gen.KernelIdeal
import proofs.«109333_j40175124087486_2_alg».proof.Proof.Gen.KernelIdeal.Frame
import proofs.«109333_j40175124087486_2_alg».proof.Proof.Gen.ReferenceIdeal
import proofs.«109333_j40175124087486_2_alg».proof.Proof.Gen.ReferenceIdeal.Run
import proofs.«109333_j40175124087486_2_alg».proof.Proof.Gen.ReferenceIdeal.Read
import proofs.«109333_j40175124087486_2_alg».proof.Proof.Gen.Pre_finite_inputs
import proofs.«109333_j40175124087486_2_alg».proof.Proof.KernelHistogram
import proofs.«109333_j40175124087486_2_alg».proof.Proof.ReferenceHistogram
import Idealize.ShloMosaic.Adequacy
import Idealize.ShloMosaic.Init

noncomputable section

namespace Cert.Proof

open Idealize.ShloMosaic Idealize.SL.Sem Idealize.ShloMosaic.ValueIdx

/-- The kernel as printed runs, faults nowhere and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to state. -/
theorem preserves : Cert.preserves_Kernel_KernelIdeal := trivial

/-- From memories that agree on `x` and the centres both programs end with the histogram of all the rows: the kernel by
    its tiles regrouped, the reference by its stages read at an entry. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext j
  obtain ⟨o, i, rfl⟩ : ∃ (o : Fin 128) (i : Fin 64), j = ix2 o i := ⟨j 0, j 1, eq_ix2 j⟩
  rw [Cert.ReferenceIdeal.Histogram.result_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
